-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S40000x128 .f32) (main_arg1 : IVec S2x640000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S40000 : Shape := ⟨1, ![40000]⟩
abbrev S640000x1 : Shape := ⟨2, ![640000, 1]⟩
abbrev S40000x1 : Shape := ⟨2, ![40000, 1]⟩
abbrev S640000x128 : Shape := ⟨2, ![640000, 128]⟩
abbrev S1x128 : Shape := ⟨2, ![1, 128]⟩
abbrev S4000x128 : Shape := ⟨2, ![4000, 128]⟩
abbrev S4000x1 : Shape := ⟨2, ![4000, 1]⟩

abbrev nBuf : Space → Nat
  | .hbm => 57
  | .vmem => 22
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S40000, .f32⟩
  | .hbm, ⟨16, _⟩ => ⟨S640000x1, .i32⟩
  | .hbm, ⟨17, _⟩ => ⟨S40000, .f32⟩
  | .hbm, ⟨18, _⟩ => ⟨S40000x1, .f32⟩
  | .hbm, ⟨19, _⟩ => ⟨S1x640000, .i32⟩
  | .hbm, ⟨20, _⟩ => ⟨S640000, .i32⟩
  | .hbm, ⟨21, _⟩ => ⟨S1x640000, .i32⟩
  | .hbm, ⟨22, _⟩ => ⟨S640000, .i32⟩
  | .hbm, ⟨23, _⟩ => ⟨S_, .i32⟩
  | .hbm, ⟨24, _⟩ => ⟨S640000, .i32⟩
  | .hbm, ⟨25, _⟩ => ⟨S640000, .i1⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S640000, .i32⟩
  | .hbm, ⟨30, _⟩ => ⟨S640000x1, .i32⟩
  | .hbm, ⟨31, _⟩ => ⟨S640000x128, .f32⟩
  | .hbm, ⟨32, _⟩ => ⟨S_, .f32⟩
  | .hbm, ⟨33, _⟩ => ⟨S40000x128, .f32⟩
  | .hbm, ⟨34, _⟩ => ⟨S640000x1, .i32⟩
  | .hbm, ⟨35, _⟩ => ⟨S40000x128, .f32⟩
  | .hbm, ⟨36, _⟩ => ⟨S1x128, .f32⟩
  | .hbm, ⟨37, _⟩ => ⟨S40000x128, .f32⟩
  | .hbm, ⟨38, _⟩ => ⟨S1x640000, .i32⟩
  | .hbm, ⟨39, _⟩ => ⟨S640000, .i32⟩
  | .hbm, ⟨40, _⟩ => ⟨S1x640000, .i32⟩
  | .hbm, ⟨41, _⟩ => ⟨S640000, .i32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000x128, .f32⟩
  | .hbm, ⟨51, _⟩ => ⟨S_, .f32⟩
  | .hbm, ⟨52, _⟩ => ⟨S40000x128, .f32⟩
  | .hbm, ⟨53, _⟩ => ⟨S640000x1, .i32⟩
  | .hbm, ⟨54, _⟩ => ⟨S40000x128, .f32⟩
  | .hbm, ⟨55, _⟩ => ⟨S1x128, .f32⟩
  | .hbm, ⟨56, _⟩ => ⟨S40000x128, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x1, .f32⟩
  | .local _ .vmem, ⟨14, _⟩ => ⟨S4000x1, .f32⟩
  | .local _ .vmem, ⟨15, _⟩ => ⟨S4000x128, .f32⟩
  | .local _ .vmem, ⟨16, _⟩ => ⟨S4000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S4000x128, .f32⟩
  | .local _ .vmem, ⟨21, _⟩ => ⟨S4000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_3 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  shapeCasts_S40000_S40000x1 : S40000.ShapeCasts S40000x1
  bcast_S_S40000x128 : S_.BroadcastsInDim S40000x128 (![] : Fin 0 → Fin S40000x128.rank)
  shapeCasts_S128_S1x128 : S128.ShapeCasts S1x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S40000x1.size a
  hwx0_1 : ∀ i : grid0.Coords, EltTy.bits .f32 = 32 ∨ (Rect.block (s := S40000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S40000x128.size a
  hwx0_2 : ∀ i : grid0.Coords, EltTy.bits .f32 = 32 ∨ (Rect.block (s := S40000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S40000x128.size a
  hwx0_6 : ∀ i : grid0.Coords, EltTy.bits .f32 = 32 ∨ (Rect.block (s := S40000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .f32 = 32 ∨ (Rect.block (s := S40000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S40000x1.size a
  hwx1_1 : ∀ i : grid1.Coords, EltTy.bits .f32 = 32 ∨ (Rect.block (s := S40000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S40000x128.size a
  hwx1_2 : ∀ i : grid1.Coords, EltTy.bits .f32 = 32 ∨ (Rect.block (s := S40000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S40000x128.size a
  hwx1_6 : ∀ i : grid1.Coords, EltTy.bits .f32 = 32 ∨ (Rect.block (s := S40000x128) S4000x128.size (cc1_transform_6 i) (hinb1_6 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v38) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S40000x128, .f32⟩
  | .hbm, ⟨23, _⟩ => ⟨S640000x1, .i32⟩
  | .hbm, ⟨24, _⟩ => ⟨S40000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S40000, .f32⟩
  | .hbm, ⟨29, _⟩ => ⟨S640000x1, .i32⟩
  | .hbm, ⟨30, _⟩ => ⟨S40000, .f32⟩
  | .hbm, ⟨31, _⟩ => ⟨S_, .f32⟩
  | .hbm, ⟨32, _⟩ => ⟨S40000, .f32⟩
  | .hbm, ⟨33, _⟩ => ⟨S40000, .f32⟩
  | .hbm, ⟨34, _⟩ => ⟨S40000x1, .f32⟩
  | .hbm, ⟨35, _⟩ => ⟨S40000x128, .f32⟩
  | .hbm, ⟨36, _⟩ => ⟨S40000x128, .f32⟩
  | .hbm, ⟨37, _⟩ => ⟨S40000x128, .f32⟩
  | .hbm, ⟨38, _⟩ => ⟨S1x128, .f32⟩
  | .hbm, ⟨39, _⟩ => ⟨S40000x128, .f32⟩
  | .hbm, ⟨40, _⟩ => ⟨S40000x128, .f32⟩
  | .hbm, ⟨41, _⟩ => ⟨S40000x128, .f32⟩
  | .hbm, ⟨42, _⟩ => ⟨S40000x128, .f32⟩
  | .hbm, ⟨43, _⟩ => ⟨S_, .f32⟩
  | .hbm, ⟨44, _⟩ => ⟨S40000x128, .f32⟩
  | .hbm, ⟨45, _⟩ => ⟨S40000x128, .f32⟩
  | .hbm, ⟨46, _⟩ => ⟨S1x640000, .i32⟩
  | .hbm, ⟨47, _⟩ => ⟨S640000, .i32⟩
  | .hbm, ⟨48, _⟩ => ⟨S1x640000, .i32⟩
  | .hbm, ⟨49, _⟩ => ⟨S640000, .i32⟩
  | .hbm, ⟨50, _⟩ => ⟨S_, .i32⟩
  | .hbm, ⟨51, _⟩ => ⟨S640000, .i32⟩
  | .hbm, ⟨52, _⟩ => ⟨S640000, .i1⟩
  | .hbm, ⟨53, _⟩ => ⟨S_, .i32⟩
  | .hbm, ⟨54, _⟩ => ⟨S640000, .i32⟩
  | .hbm, ⟨55, _⟩ => ⟨S640000, .i32⟩
  | .hbm, ⟨56, _⟩ => ⟨S640000, .i32⟩
  | .hbm, ⟨57, _⟩ => ⟨S640000x1, .i32⟩
  | .hbm, ⟨58, _⟩ => ⟨S640000x128, .f32⟩
  | .hbm, ⟨59, _⟩ => ⟨S_, .f32⟩
  | .hbm, ⟨60, _⟩ => ⟨S40000x128, .f32⟩
  | .hbm, ⟨61, _⟩ => ⟨S640000x1, .i32⟩
  | .hbm, ⟨62, _⟩ => ⟨S40000x128, .f32⟩
  | .hbm, ⟨63, _⟩ => ⟨S_, .f32⟩
  | .hbm, ⟨64, _⟩ => ⟨S640000, .f32⟩
  | .hbm, ⟨65, _⟩ => ⟨S_, .f32⟩
  | .hbm, ⟨66, _⟩ => ⟨S40000, .f32⟩
  | .hbm, ⟨67, _⟩ => ⟨S640000x1, .i32⟩
  | .hbm, ⟨68, _⟩ => ⟨S40000, .f32⟩
  | .hbm, ⟨69, _⟩ => ⟨S_, .f32⟩
  | .hbm, ⟨70, _⟩ => ⟨S40000, .f32⟩
  | .hbm, ⟨71, _⟩ => ⟨S40000, .f32⟩
  | .hbm, ⟨72, _⟩ => ⟨S40000x1, .f32⟩
  | .hbm, ⟨73, _⟩ => ⟨S40000x128, .f32⟩
  | .hbm, ⟨74, _⟩ => ⟨S40000x128, .f32⟩
  | .hbm, ⟨75, _⟩ => ⟨S40000x128, .f32⟩
  | .hbm, ⟨76, _⟩ => ⟨S1x128, .f32⟩
  | .hbm, ⟨77, _⟩ => ⟨S40000x128, .f32⟩
  | .hbm, ⟨78, _⟩ => ⟨S40000x128, .f32⟩
  | .hbm, ⟨79, _⟩ => ⟨S40000x128, .f32⟩
  | .hbm, ⟨80, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x128_S40000x128_1_0_0_1_n_n_wf : DotDims.WF S40000x128 S128x128 S40000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.Spec.lean ====
/-
  One layer of a two-layer graph network with mean aggregation, as a function of arrays on the extended reals.

  A node `r` holds a feature row of 128 numbers.  From the neighbour sum `msg r`, the in-degree `d r`, the node's own
  row `x r`, two weight matrices and a bias, output entry `(r, j)` of a layer is

      (∑ q, (msg r q / max (d r) 1) · Wl q j)  +  b j  +  ∑ q, x r q · Wr q j,

  followed, in the first layer only, by the rectifier `max · 0`.  An entry depends on row `r` of `msg` and `x`, on
  the one degree `d r`, on column `j` of the two matrices and on `b j`: nothing else.  That is what makes a
  row-blocked evaluation and a whole-array evaluation the same array.
-/
import Idealize.ShloMosaic.Lib.ValueIdx
import Idealize.ShloMosaic.PureOps.Ideal

noncomputable section

namespace Cert.Sage

open Idealize.ShloMosaic Idealize.ShloMosaic.ValueIdx

/-- The float words of `1.0` and `0.0`, as the extended reals they denote (never evaluated: both programs spell the
    same words). -/
abbrev one : EReal := Ideal.ofBits .f32 0x3F800000#32
abbrev zero : EReal := Ideal.ofBits .f32 0x00000000#32

/-- Output entry `j` of a layer at one node, from the node's neighbour-sum row `mrow`, its degree `d`, its own row
    `xrow`, the two weight matrices and the bias entry `bj`. -/
def entry (mrow : Fin 128 → EReal) (d : EReal) (xrow : Fin 128 → EReal)
    (Wl Wr : (⟨2, ![128, 128]⟩ : Shape).Idx → EReal) (bj : EReal) (j : Fin 128) : EReal :=
  ((∑ q : Fin 128, Ideal.div (mrow q) (max d one) * Wl (ix2 q j)) + bj) + ∑ q : Fin 128, xrow q * Wr (ix2 q j)

/-- The rectifier of the first layer (`relu = true`), the identity in the second. -/
def act (relu : Bool) (v : EReal) : EReal := if relu then max v zero else v

/-- Entry `(r, j)` of a layer over `n` nodes, the degree given as a column `[n, 1]` and the bias as a row `[1, 128]`. -/
def layerAt (relu : Bool) {n : ℕ} (msg : (⟨2, ![n, 128]⟩ : Shape).Idx → EReal) (dcol : (⟨2, ![n, 1]⟩ : Shape).Idx → EReal)
    (x : (⟨2, ![n, 128]⟩ : Shape).Idx → EReal) (Wl : (⟨2, ![128, 128]⟩ : Shape).Idx → EReal)
    (brow : (⟨2, ![1, 128]⟩ : Shape).Idx → EReal) (Wr : (⟨2, ![128, 128]⟩ : Shape).Idx → EReal) (r : Fin n) (j : Fin 128) : EReal :=
  act relu (entry (fun q => msg (ix2 r q)) (dcol (ix2 r (0 : Fin 1))) (fun q => x (ix2 r q)) Wl Wr (brow (ix2 (0 : Fin 1) j)) j)

/-- The layer's whole output array `[n, 128]`. -/
def layer (relu : Bool) {n : ℕ} (msg : (⟨2, ![n, 128]⟩ : Shape).Idx → EReal) (dcol : (⟨2, ![n, 1]⟩ : Shape).Idx → EReal)
    (x : (⟨2, ![n, 128]⟩ : Shape).Idx → EReal) (Wl : (⟨2, ![128, 128]⟩ : Shape).Idx → EReal)
    (brow : (⟨2, ![1, 128]⟩ : Shape).Idx → EReal) (Wr : (⟨2, ![128, 128]⟩ : Shape).Idx → EReal) :
    (⟨2, ![n, 128]⟩ : Shape).Idx → EReal :=
  fun i => layerAt relu msg dcol x Wl brow Wr (i 0) (i 1)

theorem layer_ix2 (relu : Bool) {n : ℕ} (msg : (⟨2, ![n, 128]⟩ : Shape).Idx → EReal) (dcol : (⟨2, ![n, 1]⟩ : Shape).Idx → EReal)
    (x : (⟨2, ![n, 128]⟩ : Shape).Idx → EReal) (Wl : (⟨2, ![128, 128]⟩ : Shape).Idx → EReal)
    (brow : (⟨2, ![1, 128]⟩ : Shape).Idx → EReal) (Wr : (⟨2, ![128, 128]⟩ : Shape).Idx → EReal) (r : Fin n) (j : Fin 128) :
    layer relu msg dcol x Wl brow Wr (ix2 r j) = layerAt relu msg dcol x Wl brow Wr r j := rfl

end Cert.Sage

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.RefLayer.lean ====
/-
  The reference's layer, as the host operations spell it on whole arrays, is the layer of `Spec.lean` with the degree
  vector read as a column and the bias vector read as a row.
-/
import proofs.«108806_j25323127177280_1_alg».proof.Proof.Spec
import proofs.«108806_j25323127177280_1_alg».proof.Proof.LibPlainDot
import proofs.«108806_j25323127177280_1_alg».proof.Proof.LibKeepdims
import proofs.«108806_j25323127177280_1_alg».proof.Proof.Gen.ReferenceIdeal
import Idealize.ShloMosaic.Lib.ValueLayout
import Idealize.ShloMosaic.Lib.Pipeline.Value
import Idealize.ShloMosaic.Lib.IdealHost
import Idealize.ShloMosaic.PureOps.Ideal.Laws

noncomputable section

namespace Cert.Sage

open Idealize.ShloMosaic Idealize.ShloMosaic.ValueIdx Cert.ReferenceIdeal Cert.ReferenceIdeal.Facts₀

variable {F : FTy → Type} [FloatOps F]

/-- One layer before the rectifier, in the host's operations: the neighbour sum divided by the degree clamped below
    by one (broadcast along the rows), times the left weights, plus the bias (broadcast down the rows), plus the
    node's own features times the right weights. -/
def refLayer (msg : FVec F S40000x128 .f32) (deg : FVec F S40000 .f32) (x : FVec F S40000x128 .f32)
    (Wl : FVec F S128x128 .f32) (b : FVec F S128 .f32) (Wr : FVec F S128x128 .f32) : FVec F S40000x128 .f32 :=
  addf (addf (Host.dotGeneral dot_S40000x128_S128x128_S40000x128_1_0_0_1_n_n none
      (Host.divf msg (broadcastInDim S40000x128 ![0, 1] bcast_S40000x1_S40000x128_0_1 (broadcastInDim S40000x1 ![0] bcast_S40000_S40000x1_0
        (maximumf deg (broadcastInDim S40000 ![] bcast_S_S40000 (constant S_ .f32 0x3F800000#32)))))) Wl)
    (broadcastInDim S40000x128 ![0, 1] bcast_S1x128_S40000x128_0_1 (broadcastInDim S1x128 ![1] bcast_S128_S1x128_1 b)))
    (Host.dotGeneral dot_S40000x128_S128x128_S40000x128_1_0_0_1_n_n none x Wr)

/-- The host's rectifier: the maximum with a zero array. -/
def refRelu (h : FVec F S40000x128 .f32) : FVec F S40000x128 .f32 :=
  maximumf h (broadcastInDim S40000x128 ![] bcast_S_S40000x128 (constant S_ .f32 0x00000000#32))

/-- The degree vector clamped below by one, broadcast to a column and then along the rows, read at `(r, q)`:
    the clamped degree of node `r`, whatever the column `q`. -/
private theorem degB_apply (deg : FVec Ideal S40000 .f32) (r : Fin 40000) (q : Fin 128) :
    broadcastInDim S40000x128 ![0, 1] bcast_S40000x1_S40000x128_0_1 (broadcastInDim S40000x1 ![0] bcast_S40000_S40000x1_0
        (maximumf deg (broadcastInDim S40000 ![] bcast_S_S40000 (constant (F := Ideal) S_ .f32 0x3F800000#32)))) (ix2 r q)
      = max (deg (ix1 r)) one := by
  generalize hy : maximumf deg (broadcastInDim S40000 ![] bcast_S_S40000 (constant (F := Ideal) S_ .f32 0x3F800000#32)) = y
  have h1 : broadcastInDim S40000x128 ![0, 1] bcast_S40000x1_S40000x128_0_1
        (broadcastInDim S40000x1 ![0] bcast_S40000_S40000x1_0 y) (ix2 r q)
      = broadcastInDim S40000x1 ![0] bcast_S40000_S40000x1_0 y (ix2 r (0 : Fin 1)) :=
    broadcastInDim_apply _ bcast_S40000x1_S40000x128_0_1 _ (ix2 r q) (ix2 r (0 : Fin 1)) (fun a => match a with
      | ⟨0, _⟩ => by show r.val = if (40000 : Nat) = 1 then 0 else r.val; rw [if_neg (by decide)]
      | ⟨1, _⟩ => by show 0 = if (1 : Nat) = 1 then 0 else q.val; rw [if_pos rfl])
  have h2 : broadcastInDim S40000x1 ![0] bcast_S40000_S40000x1_0 y (ix2 r (0 : Fin 1)) = y (ix1 r) :=
    broadcastInDim_apply _ bcast_S40000_S40000x1_0 y (ix2 r (0 : Fin 1)) (ix1 r) (fun a => match a with
      | ⟨0, _⟩ => by show r.val = if (40000 : Nat) = 1 then 0 else r.val; rw [if_neg (by decide)])
  rw [h1, h2, ← hy, maximumf_apply, broadcastInDim_scalar_apply, constant_apply]

/-- The bias vector, broadcast to a row and then down the rows, read at `(r, j)`: the bias entry `j`, whatever the
    row `r`. -/
private theorem biasB_apply (b : FVec Ideal S128 .f32) (r : Fin 40000) (j : Fin 128) :
    broadcastInDim S40000x128 ![0, 1] bcast_S1x128_S40000x128_0_1 (broadcastInDim S1x128 ![1] bcast_S128_S1x128_1 b) (ix2 r j)
      = b (ix1 j) := by
  have h1 : broadcastInDim S40000x128 ![0, 1] bcast_S1x128_S40000x128_0_1 (broadcastInDim S1x128 ![1] bcast_S128_S1x128_1 b) (ix2 r j)
      = broadcastInDim S1x128 ![1] bcast_S128_S1x128_1 b (ix2 (0 : Fin 1) j) :=
    broadcastInDim_apply _ bcast_S1x128_S40000x128_0_1 _ (ix2 r j) (ix2 (0 : Fin 1) j) (fun a => match a with
      | ⟨0, _⟩ => by show 0 = if (1 : Nat) = 1 then 0 else r.val; rw [if_pos rfl]
      | ⟨1, _⟩ => by show j.val = if (128 : Nat) = 1 then 0 else j.val; rw [if_neg (by decide)])
  have h2 : broadcastInDim S1x128 ![1] bcast_S128_S1x128_1 b (ix2 (0 : Fin 1) j) = b (ix1 j) :=
    broadcastInDim_apply _ bcast_S128_S1x128_1 b (ix2 (0 : Fin 1) j) (ix1 j) (fun a => match a with
      | ⟨0, _⟩ => by show j.val = if (128 : Nat) = 1 then 0 else j.val; rw [if_neg (by decide)])
  rw [h1, h2]

/-- The reference's layer before the rectifier, read at `(r, j)`: the entry of `Spec.lean` from row `r` of the
    neighbour sums and of the features, the degree of `r`, and the bias entry `j`. -/
private theorem refLayer_ix2 (msg : FVec Ideal S40000x128 .f32) (deg : FVec Ideal S40000 .f32) (x : FVec Ideal S40000x128 .f32)
    (Wl : FVec Ideal S128x128 .f32) (b : FVec Ideal S128 .f32) (Wr : FVec Ideal S128x128 .f32) (r : Fin 40000) (j : Fin 128) :
    refLayer msg deg x Wl b Wr (ix2 r j)
      = entry (fun q => msg (ix2 r q)) (deg (ix1 r)) (fun q => x (ix2 r q)) Wl Wr (b (ix1 j)) j := by
  unfold refLayer entry
  rw [addf_apply, addf_apply, biasB_apply,
    Cert.PlainDot.dotGeneral_ix2 dot_S40000x128_S128x128_S40000x128_1_0_0_1_n_n rfl none _ Wl r j,
    Cert.PlainDot.dotGeneral_ix2 dot_S40000x128_S128x128_S40000x128_1_0_0_1_n_n rfl none x Wr r j]
  refine congrArg (fun t => t + b (ix1 j) + ∑ q : Fin 128, x (ix2 r q) * Wr (ix2 q j)) ?_
  refine Finset.sum_congr rfl fun q _ => ?_
  refine congrArg (fun t => t * Wl (ix2 q j)) ?_
  show Ideal.div (msg (ix2 r q)) _ = _
  rw [degB_apply]

/-- The second layer (no rectifier). -/
theorem refLayer_eq (msg : FVec Ideal S40000x128 .f32) (deg : FVec Ideal S40000 .f32) (x : FVec Ideal S40000x128 .f32)
    (Wl : FVec Ideal S128x128 .f32) (b : FVec Ideal S128 .f32) (Wr : FVec Ideal S128x128 .f32)
    (hd : S40000.ShapeCasts S40000x1) (hb : S128.ShapeCasts S1x128) :
    refLayer msg deg x Wl b Wr = layer false msg (shapeCast S40000x1 deg hd) x Wl (shapeCast S1x128 b hb) Wr := by
  funext i
  obtain ⟨r, j, rfl⟩ : ∃ (r : Fin 40000) (j : Fin 128), i = ix2 r j := ⟨i 0, i 1, eq_ix2 i⟩
  rw [layer_ix2, refLayer_ix2]
  unfold layerAt act
  rw [Cert.LibKeepdims.shapeCast_a_a1_apply deg hd r 0, shapeCast_a_1a_apply b hb 0 j]
  rfl

/-- The first layer (with the rectifier). -/
theorem refRelu_refLayer_eq (msg : FVec Ideal S40000x128 .f32) (deg : FVec Ideal S40000 .f32) (x : FVec Ideal S40000x128 .f32)
    (Wl : FVec Ideal S128x128 .f32) (b : FVec Ideal S128 .f32) (Wr : FVec Ideal S128x128 .f32)
    (hd : S40000.ShapeCasts S40000x1) (hb : S128.ShapeCasts S1x128) :
    refRelu (refLayer msg deg x Wl b Wr) = layer true msg (shapeCast S40000x1 deg hd) x Wl (shapeCast S1x128 b hb) Wr := by
  funext i
  obtain ⟨r, j, rfl⟩ : ∃ (r : Fin 40000) (j : Fin 128), i = ix2 r j := ⟨i 0, i 1, eq_ix2 i⟩
  rw [layer_ix2]
  unfold refRelu
  rw [maximumf_apply, broadcastInDim_scalar_apply, constant_apply, refLayer_ix2]
  unfold layerAt act
  rw [Cert.LibKeepdims.shapeCast_a_a1_apply deg hd r 0, shapeCast_a_1a_apply b hb 0 j]
  rfl

end Cert.Sage

end
-- ==== Proof.Net.lean ====
/-
  The whole network as one function of the argument arrays, in the host's operations.

  The edge list `ei : [2, 640000]` holds a row of source nodes and a row of destination nodes.  The neighbour sum
  of a feature array gathers the source rows (a negative source counted from the end) and adds each into its
  destination row; the in-degree adds a one per edge into its destination.  Both programs spell these two host
  chains with the same operations, so they are carried here as two functions and never opened.  The network is the
  first layer with the rectifier on the features, then the second layer on the result, the degree shared.
-/
import proofs.«108806_j25323127177280_1_alg».proof.Proof.RefLayer

noncomputable section

namespace Cert.Sage

open Idealize.ShloMosaic Cert.ReferenceIdeal Cert.ReferenceIdeal.Facts₀

variable {F : FTy → Type} [FloatOps F]

/-- The destination row of the edge list, as the index column a scatter takes. -/
def dstIdx (ei : IVec S2x640000 32) : IVec S640000x1 32 :=
  broadcastInDim S640000x1 ![0] bcast_S640000_S640000x1_0
    (shapeCast _ (extractStridedSlice S1x640000 ![1, 0] ei slices_S2x640000_S1x640000_1_0) shapeCasts_S1x640000_S640000)

/-- The source row of the edge list, a negative entry counted from the end, as the index column a gather takes. -/
def srcIdx (ei : IVec S2x640000 32) : IVec S640000x1 32 :=
  broadcastInDim S640000x1 ![0] bcast_S640000_S640000x1_0
    (select (cmpi .slt (shapeCast _ (extractStridedSlice S1x640000 ![0, 0] ei slices_S2x640000_S1x640000_0_0) shapeCasts_S1x640000_S640000)
        (broadcastInDim S640000 ![] bcast_S_S640000 (constantI S_ 32 0#32)))
      (addi (shapeCast _ (extractStridedSlice S1x640000 ![0, 0] ei slices_S2x640000_S1x640000_0_0) shapeCasts_S1x640000_S640000)
        (broadcastInDim S640000 ![] bcast_S_S640000 (constantI S_ 32 40000#32)))
      (shapeCast _ (extractStridedSlice S1x640000 ![0, 0] ei slices_S2x640000_S1x640000_0_0) shapeCasts_S1x640000_S640000))

/-- The neighbour sum: the source rows of `x` added into their destination rows of a zero array. -/
def msgOf (x : FVec F S40000x128 .f32) (ei : IVec S2x640000 32) : FVec F S40000x128 .f32 :=
  Host.scatterAdd scatter_S40000x128_S640000x1_S640000x128_1_0_0_1
    (broadcastInDim S40000x128 ![] bcast_S_S40000x128 (constant S_ .f32 0x00000000#32)) (dstIdx ei)
    (Host.gather gather_S40000x128_S640000x1_S640000x128_1_0_n_n_0_1_1128 x (srcIdx ei))

/-- The in-degree: a one per edge added into its destination entry of a zero vector. -/
def degOf (ei : IVec S2x640000 32) : FVec F S40000 .f32 :=
  Host.scatterAdd scatter_S40000_S640000x1_S640000_n_0_0_1
    (broadcastInDim S40000 ![] bcast_S_S40000 (constant S_ .f32 0x00000000#32)) (dstIdx ei)
    (broadcastInDim S640000 ![] bcast_S_S640000 (constant S_ .f32 0x3F800000#32))

/-- The first layer's output: the rectified layer of the features and their neighbour sum. -/
def hidden (x : FVec F S40000x128 .f32) (ei : IVec S2x640000 32) (W1l : FVec F S128x128 .f32) (b1 : FVec F S128 .f32)
    (W1r : FVec F S128x128 .f32) : FVec F S40000x128 .f32 :=
  refRelu (refLayer (msgOf x ei) (degOf ei) x W1l b1 W1r)

/-- The network: the second layer of the first layer's output and its neighbour sum. -/
def net (x : FVec F S40000x128 .f32) (ei : IVec S2x640000 32) (W1l : FVec F S128x128 .f32) (b1 : FVec F S128 .f32)
    (W1r : FVec F S128x128 .f32) (W2l : FVec F S128x128 .f32) (b2 : FVec F S128 .f32) (W2r : FVec F S128x128 .f32) :
    FVec F S40000x128 .f32 :=
  refLayer (msgOf (hidden x ei W1l b1 W1r) ei) (degOf ei) (hidden x ei W1l b1 W1r) W2l b2 W2r

end Cert.Sage

end
-- ==== Proof.Glue.lean ====
/-
  What the kernel program's host stretches hand to its two regions, and what they keep.

  Before the first region the host computes the in-degree vector (cast to a column), the neighbour sum of the features,
  and the first bias cast to a row; the features and weights are the arguments.  Between the regions it computes the
  neighbour sum of the first region's output array and the second bias as a row; the degree column, the first region's
  output and the second layer's weights are as the first region left them.  The two host chains are the functions
  `degOf` and `msgOf` of `Net.lean`, operation for operation.
-/
import proofs.«108806_j25323127177280_1_alg».proof.Proof.Net
import proofs.«108806_j25323127177280_1_alg».proof.Proof.Gen.KernelIdeal.Frame
import Idealize.ShloMosaic.Lib.StableHlo.Run

set_option maxRecDepth 16384

noncomputable section

namespace Cert.Sage

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## Before the first region -/

set_option maxHeartbeats 4000000 in
theorem V1_v22 (c : Dev nD) : (V1 m ρ c main_v22 : FVec F S40000x128 .f32)
    = msgOf (m ((c.tc : Thread nD τ).loc main_arg0)) (m ((c.tc : Thread nD τ).loc main_arg1)) := by
  show StableHlo.after hostOps0 (W0 m ρ c) (Proc.devRef .tc main_v22) = _
  after_results_simp
  rfl

set_option maxHeartbeats 4000000 in
theorem V1_v8 (c : Dev nD) : (V1 m ρ c main_v8 : FVec F S40000x1 .f32)
    = shapeCast S40000x1 (degOf (m ((c.tc : Thread nD τ).loc main_arg1))) Facts₀.shapeCasts_S40000_S40000x1 := by
  show StableHlo.after hostOps0 (W0 m ρ c) (Proc.devRef .tc main_v8) = _
  after_results_simp
  rfl

set_option maxHeartbeats 4000000 in
theorem V1_v23 (c : Dev nD) : (V1 m ρ c main_v23 : FVec F S1x128 .f32)
    = shapeCast S1x128 (m ((c.tc : Thread nD τ).loc main_arg3)) Facts₀.shapeCasts_S128_S1x128 := by
  show StableHlo.after hostOps0 (W0 m ρ c) (Proc.devRef .tc main_v23) = _
  after_results_simp
  rfl

set_option maxHeartbeats 4000000 in
theorem V1_arg0 (c : Dev nD) : (V1 m ρ c main_arg0 : FVec F S40000x128 .f32)
    = m ((c.tc : Thread nD τ).loc main_arg0) := by
  show StableHlo.after hostOps0 (W0 m ρ c) (Proc.devRef .tc main_arg0) = _
  after_results_simp

set_option maxHeartbeats 4000000 in
theorem V1_arg2 (c : Dev nD) : (V1 m ρ c main_arg2 : FVec F S128x128 .f32)
    = m ((c.tc : Thread nD τ).loc main_arg2) := by
  show StableHlo.after hostOps0 (W0 m ρ c) (Proc.devRef .tc main_arg2) = _
  after_results_simp

set_option maxHeartbeats 4000000 in
theorem V1_arg4 (c : Dev nD) : (V1 m ρ c main_arg4 : FVec F S128x128 .f32)
    = m ((c.tc : Thread nD τ).loc main_arg4) := by
  show StableHlo.after hostOps0 (W0 m ρ c) (Proc.devRef .tc main_arg4) = _
  after_results_simp

/-- The host stretch before the first region leaves every argument as launched. -/
theorem W1_arg1 (c : Dev nD) : W1 m ρ c (Proc.devRef .tc main_arg1) = m ((c.tc : Thread nD τ).loc main_arg1) :=
  (StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

/-! ## What the first region leaves, at the buffers the second stretch and the second region read -/

/-- The first region's output array holds what its write-backs left. -/
theorem W2_v24 (c : Dev nD) : W2 m ρ c (Proc.devRef .tc main_v24) = (dat0 (V1 m ρ) c).arrAt 6 cfg0.N :=
  W2_arr m ρ c 6

/-- The degree column, an input of the first region, is as the region found it. -/
theorem W2_v8 (c : Dev nD) : W2 m ρ c (Proc.devRef .tc main_v8) = V1 m ρ c main_v8 :=
  (W2_arr m ρ c 1).trans (((dat0 (V1 m ρ) c).arrAt_in 1 rfl _).trans (A_eq0 (V1 m ρ) c 1))

/-- A buffer that is not one of the first region's arrays is as the region found it. -/
theorem W2_arg1 (c : Dev nD) : W2 m ρ c (Proc.devRef .tc main_arg1) = m ((c.tc : Thread nD τ).loc main_arg1) :=
  (W2_of_ne m ρ c main_arg1 (by decide)).trans (W1_arg1 m ρ c)

theorem W1_arg5 (c : Dev nD) : W1 m ρ c (Proc.devRef .tc main_arg5) = m ((c.tc : Thread nD τ).loc main_arg5) :=
  (StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem W1_arg6 (c : Dev nD) : W1 m ρ c (Proc.devRef .tc main_arg6) = m ((c.tc : Thread nD τ).loc main_arg6) :=
  (StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem W1_arg7 (c : Dev nD) : W1 m ρ c (Proc.devRef .tc main_arg7) = m ((c.tc : Thread nD τ).loc main_arg7) :=
  (StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem W2_arg5 (c : Dev nD) : W2 m ρ c (Proc.devRef .tc main_arg5) = m ((c.tc : Thread nD τ).loc main_arg5) :=
  (W2_of_ne m ρ c main_arg5 (by decide)).trans (W1_arg5 m ρ c)

theorem W2_arg6 (c : Dev nD) : W2 m ρ c (Proc.devRef .tc main_arg6) = m ((c.tc : Thread nD τ).loc main_arg6) :=
  (W2_of_ne m ρ c main_arg6 (by decide)).trans (W1_arg6 m ρ c)

theorem W2_arg7 (c : Dev nD) : W2 m ρ c (Proc.devRef .tc main_arg7) = m ((c.tc : Thread nD τ).loc main_arg7) :=
  (W2_of_ne m ρ c main_arg7 (by decide)).trans (W1_arg7 m ρ c)

/-! ## Between the regions -/

set_option maxHeartbeats 4000000 in
/-- The second region's neighbour sum is that of the first region's output array. -/
theorem V3_v38 (c : Dev nD) : (V3 m ρ c main_v38 : FVec F S40000x128 .f32)
    = msgOf ((dat0 (V1 m ρ) c).arrAt 6 cfg0.N) (m ((c.tc : Thread nD τ).loc main_arg1)) := by
  show StableHlo.after hostOps1 (W2 m ρ c) (Proc.devRef .tc main_v38) = _
  after_results_simp
  rw [W2_v24, W2_arg1]
  rfl

set_option maxHeartbeats 4000000 in
/-- The second bias, cast to a row. -/
theorem V3_v39 (c : Dev nD) : (V3 m ρ c main_v39 : FVec F S1x128 .f32)
    = shapeCast S1x128 (m ((c.tc : Thread nD τ).loc main_arg6)) Facts₀.shapeCasts_S128_S1x128 := by
  show StableHlo.after hostOps1 (W2 m ρ c) (Proc.devRef .tc main_v39) = _
  after_results_simp
  rw [W2_arg6]
  rfl

set_option maxHeartbeats 4000000 in
/-- The degree column reaches the second region as the first stretch made it. -/
theorem V3_v8 (c : Dev nD) : (V3 m ρ c main_v8 : FVec F S40000x1 .f32)
    = shapeCast S40000x1 (degOf (m ((c.tc : Thread nD τ).loc main_arg1))) Facts₀.shapeCasts_S40000_S40000x1 := by
  show StableHlo.after hostOps1 (W2 m ρ c) (Proc.devRef .tc main_v8) = _
  after_results_simp
  rw [W2_v8]
  exact V1_v8 m ρ c

set_option maxHeartbeats 4000000 in
/-- The second region's own-feature operand is the first region's output array. -/
theorem V3_v24 (c : Dev nD) : (V3 m ρ c main_v24 : FVec F S40000x128 .f32) = (dat0 (V1 m ρ) c).arrAt 6 cfg0.N := by
  show StableHlo.after hostOps1 (W2 m ρ c) (Proc.devRef .tc main_v24) = _
  after_results_simp
  rw [W2_v24]

set_option maxHeartbeats 4000000 in
theorem V3_arg5 (c : Dev nD) : (V3 m ρ c main_arg5 : FVec F S128x128 .f32) = m ((c.tc : Thread nD τ).loc main_arg5) := by
  show StableHlo.after hostOps1 (W2 m ρ c) (Proc.devRef .tc main_arg5) = _
  after_results_simp
  rw [W2_arg5]

set_option maxHeartbeats 4000000 in
theorem V3_arg7 (c : Dev nD) : (V3 m ρ c main_arg7 : FVec F S128x128 .f32) = m ((c.tc : Thread nD τ).loc main_arg7) := by
  show StableHlo.after hostOps1 (W2 m ρ c) (Proc.devRef .tc main_arg7) = _
  after_results_simp
  rw [W2_arg7]

end Cert.Sage

end
-- ==== Proof.Payload.lean ====
/-
  What one grid point's body computes: the stored block, entry by entry, is the layer of `Spec.lean` over the point's
  own row blocks, its degree column block, the two weight matrices and the bias row.
-/
import proofs.«108806_j25323127177280_1_alg».proof.Proof.Spec
import proofs.«108806_j25323127177280_1_alg».proof.Proof.LibPlainDot
import proofs.«108806_j25323127177280_1_alg».proof.Proof.LibKeepdims
import proofs.«108806_j25323127177280_1_alg».proof.Proof.Gen.KernelIdeal.Skeleton
import Idealize.ShloMosaic.Lib.ValueLayout
import Idealize.ShloMosaic.Lib.Pipeline.Value
import Idealize.ShloMosaic.PureOps.Ideal.Laws

noncomputable section

namespace Cert.Sage

open Idealize.ShloMosaic Idealize.ShloMosaic.ValueIdx Cert.KernelIdeal Cert.KernelIdeal.Gen

/-- The printed dimension numbers are the plain ones: contract the left operand's columns with the right operand's
    rows, no batch axis. -/
private theorem dot_plain : dot_S4000x128_S128x128_S4000x128_1_0_0_1_n_n = DotDims.plain 4000 128 128 := rfl

/-- The clamped degree column, spread along the rows: at `(p, q)` it is `max (d p) 1`. -/
private theorem deg_at (d : Vec Ideal S4000x1 .f32) (p : Fin 4000) (q : Fin 128) :
    broadcastTo S4000x128
        (maximumf (shapeCast S4000x1 d shapeCasts_S4000x1_S4000x1)
          (broadcast S4000x1 (Scalar.ofBits (F := Ideal) .f32 0x3F800000#32)))
        broadcasts_S4000x1_S4000x128 (ix2 p q)
      = max (d (ix2 p (0 : Fin 1))) one := by
  refine (Cert.LibKeepdims.broadcastTo_a1_ab_apply _ broadcasts_S4000x1_S4000x128 p q).trans ?_
  rw [shapeCast_self]
  rfl

/-- The left product at `(p, j)`: the neighbour-sum row divided by the clamped degree, against column `j` of the left
    weights. The narrowing format changes are the identity on the extended reals. -/
private theorem left_at (d : Vec Ideal S4000x1 .f32) (a : Vec Ideal S4000x128 .f32) (wl : Vec Ideal S128x128 .f32)
    (p : Fin 4000) (j : Fin 128) :
    matmul dot_S4000x128_S128x128_S4000x128_1_0_0_1_n_n none
        (truncf .bf16
          (divf (shapeCast S4000x128 a shapeCasts_S4000x128_S4000x128)
            (broadcastTo S4000x128
              (maximumf (shapeCast S4000x1 d shapeCasts_S4000x1_S4000x1)
                (broadcast S4000x1 (Scalar.ofBits (F := Ideal) .f32 0x3F800000#32)))
              broadcasts_S4000x1_S4000x128))
          bitsLt_bf16_f32)
        (truncf .bf16 wl bitsLt_bf16_f32) (constant (F := Ideal) S4000x128 .f32 0x00000000#32) (ix2 p j)
      = ∑ q : Fin 128, Ideal.div (a (ix2 p q)) (max (d (ix2 p (0 : Fin 1))) one) * wl (ix2 q j) := by
  refine (Cert.PlainDot.matmul_zero_ix2 _ dot_plain none _ _ p j).trans ?_
  refine Finset.sum_congr rfl fun q _ => ?_
  refine congrArg (· * wl (ix2 q j)) ?_
  refine (divf_apply _ _ _).trans ?_
  rw [deg_at, shapeCast_self]

/-- The right product at `(p, j)`: the node's own row against column `j` of the right weights. -/
private theorem right_at (x : Vec Ideal S4000x128 .f32) (wr : Vec Ideal S128x128 .f32) (p : Fin 4000) (j : Fin 128) :
    matmul dot_S4000x128_S128x128_S4000x128_1_0_0_1_n_n none (truncf .bf16 x bitsLt_bf16_f32)
        (truncf .bf16 wr bitsLt_bf16_f32) (constant (F := Ideal) S4000x128 .f32 0x00000000#32) (ix2 p j)
      = ∑ q : Fin 128, x (ix2 p q) * wr (ix2 q j) :=
  Cert.PlainDot.matmul_zero_ix2 _ dot_plain none _ _ p j

/-- The bias row spread down the columns: at `(p, j)` it is `b j`. -/
private theorem bias_at (b : Vec Ideal S1x128 .f32) (p : Fin 4000) (j : Fin 128) :
    broadcastTo S4000x128 (shapeCast S1x128 b shapeCasts_S1x128_S1x128) broadcasts_S1x128_S4000x128 (ix2 p j)
      = b (ix2 (0 : Fin 1) j) := by
  rw [shapeCast_self]
  exact broadcastTo_1b_ab_apply b broadcasts_S1x128_S4000x128 p j

/-- The first layer's stored block (with the rectifier). -/
theorem pay0_eq (d : Vec Ideal S4000x1 .f32) (a xb : Vec Ideal S4000x128 .f32) (wl wr : Vec Ideal S128x128 .f32)
    (b : Vec Ideal S1x128 .f32) :
    k0_pay1 (F := Ideal) d a xb wl wr b = layer true a d xb wl b wr := by
  funext i
  obtain ⟨p, j, rfl⟩ : ∃ (p : Fin 4000) (j : Fin 128), i = ix2 p j := ⟨i 0, i 1, eq_ix2 i⟩
  rw [layer_ix2]
  unfold k0_pay1 layerAt act entry
  rw [if_pos rfl]
  refine (maximumf_apply _ _ _).trans ?_
  refine congrArg₂ max ?_ rfl
  refine (addf_apply _ _ _).trans ?_
  refine congrArg₂ (· + ·) ?_ (right_at xb wr p j)
  refine (addf_apply _ _ _).trans ?_
  exact congrArg₂ (· + ·) (left_at d a wl p j) (bias_at b p j)

/-- The second layer's stored block (no rectifier). -/
theorem pay1_eq (d : Vec Ideal S4000x1 .f32) (a xb : Vec Ideal S4000x128 .f32) (wl wr : Vec Ideal S128x128 .f32)
    (b : Vec Ideal S1x128 .f32) :
    k1_pay1 (F := Ideal) d a xb wl wr b = layer false a d xb wl b wr := by
  funext i
  obtain ⟨p, j, rfl⟩ : ∃ (p : Fin 4000) (j : Fin 128), i = ix2 p j := ⟨i 0, i 1, eq_ix2 i⟩
  rw [layer_ix2]
  unfold k1_pay1 layerAt act entry
  rw [if_neg Bool.false_ne_true]
  refine (addf_apply _ _ _).trans ?_
  refine congrArg₂ (· + ·) ?_ ((right_at _ wr p j).trans (by rw [shapeCast_self]))
  refine (addf_apply _ _ _).trans ?_
  exact congrArg₂ (· + ·) (left_at d a wl p j) (bias_at b p j)

end Cert.Sage

end
-- ==== Proof.Region.lean ====
/-
  From blocks to the array: each of the two kernel regions writes its output array block by block, ten row blocks of
  4000 nodes; block `t` of the layer of `Spec.lean` over the whole arrays depends only on rows `4000 t … 4000 t + 3999`
  of the row-indexed operands, which is exactly what point `t` was handed.  So the array the region leaves is the layer
  of the arrays the region found.
-/
import proofs.«108806_j25323127177280_1_alg».proof.Proof.Spec
import proofs.«108806_j25323127177280_1_alg».proof.Proof.Payload
import proofs.«108806_j25323127177280_1_alg».proof.Proof.Gen.KernelIdeal.Frame
import Idealize.ShloMosaic.Lib.Pipeline.Value

set_option maxRecDepth 16384

noncomputable section

namespace Cert.Sage

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Shared: an entry of a layer depends on one row of the row-indexed operands -/

private theorem hz : (![0, 0] : Fin 2 → Nat) = fun _ => 0 := funext fun a => by fin_cases a <;> rfl

/-- Entry `(p, j)` of a layer over `n` nodes is entry `(r, j)` of the layer over `N` nodes, when row `p` of the
    small neighbour-sum and feature arrays is row `r` of the large ones and the two degrees agree: the weight matrices and
    the bias are shared. -/
private theorem layer_row (relu : Bool) {n N : ℕ}
    (a : (⟨2, ![n, 128]⟩ : Shape).Idx → EReal) (d : (⟨2, ![n, 1]⟩ : Shape).Idx → EReal)
    (xb : (⟨2, ![n, 128]⟩ : Shape).Idx → EReal)
    (A : (⟨2, ![N, 128]⟩ : Shape).Idx → EReal) (D : (⟨2, ![N, 1]⟩ : Shape).Idx → EReal)
    (X : (⟨2, ![N, 128]⟩ : Shape).Idx → EReal)
    (Wl : (⟨2, ![128, 128]⟩ : Shape).Idx → EReal) (B : (⟨2, ![1, 128]⟩ : Shape).Idx → EReal)
    (Wr : (⟨2, ![128, 128]⟩ : Shape).Idx → EReal) (p : Fin n) (r : Fin N) (j : Fin 128)
    (ha : ∀ q : Fin 128, a (ix2 p q) = A (ix2 r q)) (hd : d (ix2 p (0 : Fin 1)) = D (ix2 r (0 : Fin 1)))
    (hx : ∀ q : Fin 128, xb (ix2 p q) = X (ix2 r q)) :
    layer relu a d xb Wl B Wr (ix2 p j) = layer relu A D X Wl B Wr (ix2 r j) := by
  rw [layer_ix2, layer_ix2]
  unfold layerAt
  rw [hd, funext ha, funext hx]

/-! ## Region 0 -/

/-- The block index maps, decided over the ten grid points: the row-blocked windows are at block `(t, 0)`, the whole
    arrays at block `(0, 0)`. -/
private theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of the neighbour-sum block at point `t` is row `4000 t + p` of the array. -/
private theorem blk0_0 (c : Dev nD) (t : Fin cfg0.N) (p : Fin 4000) (q : Fin 128) (h : 4000 * t.val + p.val < 40000) :
    (iblk0 V c 0 t : Vec Ideal S4000x128 .f32) (ix2 p q)
      = (V c main_v22 : S40000x128.Idx → Elt Ideal .f32) (ix2 ⟨4000 * t.val + p.val, h⟩ q) := by
  obtain ⟨e0, e1, -⟩ := idx0 t
  unfold iblk0
  rw [View.read_apply]
  show V c main_v22 (((cfg0.win 0).blk t).view.emb (ix2 p q)) = V c main_v22 _
  congr 1
  funext a
  apply Fin.ext
  match a with
  | ⟨0, _⟩ => show win0_0.index t (0 : Fin 2) * 4000 + 1 * p.val = 4000 * t.val + p.val; rw [e0]; omega
  | ⟨1, _⟩ => show win0_0.index t (1 : Fin 2) * 128 + 1 * q.val = q.val; rw [e1]; omega

/-- Row `p` of the degree block at point `t` is row `4000 t + p` of the degree column. -/
private theorem blk0_1 (c : Dev nD) (t : Fin cfg0.N) (p : Fin 4000) (q : Fin 1) (h : 4000 * t.val + p.val < 40000) :
    (iblk0 V c 1 t : Vec Ideal S4000x1 .f32) (ix2 p q)
      = (V c main_v8 : S40000x1.Idx → Elt Ideal .f32) (ix2 ⟨4000 * t.val + p.val, h⟩ q) := by
  obtain ⟨-, -, e0, e1, -⟩ := idx0 t
  unfold iblk0
  rw [View.read_apply]
  show V c main_v8 (((cfg0.win 1).blk t).view.emb (ix2 p q)) = V c main_v8 _
  congr 1
  funext a
  apply Fin.ext
  match a with
  | ⟨0, _⟩ => show win0_1.index t (0 : Fin 2) * 4000 + 1 * p.val = 4000 * t.val + p.val; rw [e0]; omega
  | ⟨1, _⟩ => show win0_1.index t (1 : Fin 2) * 1 + 1 * q.val = q.val; rw [e1]; omega

/-- Row `p` of the feature block at point `t` is row `4000 t + p` of the feature array. -/
private theorem blk0_2 (c : Dev nD) (t : Fin cfg0.N) (p : Fin 4000) (q : Fin 128) (h : 4000 * t.val + p.val < 40000) :
    (iblk0 V c 2 t : Vec Ideal S4000x128 .f32) (ix2 p q)
      = (V c main_arg0 : S40000x128.Idx → Elt Ideal .f32) (ix2 ⟨4000 * t.val + p.val, h⟩ q) := by
  obtain ⟨-, -, -, -, e0, e1, -⟩ := idx0 t
  unfold iblk0
  rw [View.read_apply]
  show V c main_arg0 (((cfg0.win 2).blk t).view.emb (ix2 p q)) = V c main_arg0 _
  congr 1
  funext a
  apply Fin.ext
  match a with
  | ⟨0, _⟩ => show win0_2.index t (0 : Fin 2) * 4000 + 1 * p.val = 4000 * t.val + p.val; rw [e0]; omega
  | ⟨1, _⟩ => show win0_2.index t (1 : Fin 2) * 128 + 1 * q.val = q.val; rw [e1]; omega

/-- The first weight matrix's block is the matrix, at every point. -/
private theorem blk0_3 (c : Dev nD) (t : Fin cfg0.N) :
    (iblk0 V c 3 t : Vec Ideal S128x128 .f32) = (V c main_arg2 : S128x128.Idx → Elt Ideal .f32) := by
  obtain ⟨-, -, -, -, -, -, e0, e1, -⟩ := idx0 t
  funext y
  unfold iblk0
  rw [View.read_apply]
  show V c main_arg2 (((cfg0.win 3).blk t).view.emb y) = V c main_arg2 y
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The bias row's block is the bias row, at every point. -/
private theorem blk0_4 (c : Dev nD) (t : Fin cfg0.N) :
    (iblk0 V c 4 t : Vec Ideal S1x128 .f32) = (V c main_v23 : S1x128.Idx → Elt Ideal .f32) := by
  obtain ⟨-, -, -, -, -, -, -, -, e0, e1, -⟩ := idx0 t
  funext y
  unfold iblk0
  rw [View.read_apply]
  show V c main_v23 (((cfg0.win 4).blk t).view.emb y) = V c main_v23 y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- The second weight matrix's block is the matrix, at every point. -/
private theorem blk0_5 (c : Dev nD) (t : Fin cfg0.N) :
    (iblk0 V c 5 t : Vec Ideal S128x128 .f32) = (V c main_arg4 : S128x128.Idx → Elt Ideal .f32) := by
  obtain ⟨-, -, -, -, -, -, -, -, -, -, e0, e1, -⟩ := idx0 t
  funext y
  unfold iblk0
  rw [View.read_apply]
  show V c main_arg4 (((cfg0.win 5).blk t).view.emb y) = V c main_arg4 y
  congr 1
  funext a
  apply Fin.ext
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- WHAT POINT `t` WRITES BACK is block `t` of the first layer of the arrays the region found: entry `(p, j)` of the
    stored block is the layer's entry over the point's row blocks, whose row `p` is row `4000 t + p` of the arrays. -/
private theorem flushed0 (c : Dev nD) (t : Fin cfg0.N) :
    (dat0 V c).flushed 6 t = ((cfg0.win 6).blk t).view.read (Elt Ideal)
      (layer true (V c main_v22) (V c main_v8) (V c main_arg0) (V c main_arg2) (V c main_v23) (V c main_arg4)) := by
  show (cfg0.win 6).cut (grid0.coords t) ((dat0 V c).after 6 t) = _
  rw [after0_6]
  unfold out0_6
  rw [View.canon_unit_zero hz]
  simp only [View.ld_unit_zero (S := S4000x1) hz, View.ld_unit_zero (S := S4000x128) hz,
    View.ld_unit_zero (S := S128x128) hz, View.ld_unit_zero (S := S1x128) hz]
  rw [pay0_eq, blk0_3, blk0_4, blk0_5]
  obtain ⟨-, -, -, -, -, -, -, -, -, -, -, -, e0, e1⟩ := idx0 t
  have hN : t.val < 10 := lt_of_lt_of_eq t.isLt N_0
  funext y
  obtain ⟨p, j, rfl⟩ : ∃ (p : Fin 4000) (j : Fin 128), y = ix2 p j := ⟨y 0, y 1, eq_ix2 y⟩
  rw [View.read_apply]
  have hr : 4000 * t.val + p.val < 40000 := by have := p.isLt; omega
  have hemb : ((cfg0.win 6).blk t).view.emb (ix2 p j) = (ix2 ⟨4000 * t.val + p.val, hr⟩ j : S40000x128.Idx) := by
    funext a
    apply Fin.ext
    match a with
    | ⟨0, _⟩ => show win0_6.index t (0 : Fin 2) * 4000 + 1 * p.val = 4000 * t.val + p.val; rw [e0]; omega
    | ⟨1, _⟩ => show win0_6.index t (1 : Fin 2) * 128 + 1 * j.val = j.val; rw [e1]; omega
  show layer true _ _ _ _ _ _ (ix2 p j)
    = layer true (V c main_v22) (V c main_v8) (V c main_arg0) (V c main_arg2) (V c main_v23) (V c main_arg4)
        (((cfg0.win 6).blk t).view.emb (ix2 p j))
  rw [hemb]
  exact layer_row true _ _ _ _ _ _ _ _ _ p ⟨_, hr⟩ j (fun q => blk0_0 V c t p q hr) (blk0_1 V c t p 0 hr)
    (fun q => blk0_2 V c t p q hr)

/-- An index of the output array is in point `t`'s block iff each coordinate is in the block's range on its axis. -/
private theorem mem_blk0 (t : Fin cfg0.N) (i : S40000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v24).slice (win0_6.rect t)).set ↔ _
  rw [View.set_slice_whole, Rect.mem_set_unit]
  exact Iff.rfl

/-- The ten row blocks cover the output array: row `r` is in the block of point `⌊r / 4000⌋`, and every point writes
    its block back. -/
private theorem cover0 (i : S40000x128.Idx) :
    ∃ t : Fin cfg0.N, (cfg0.win 6).flush t = true ∧ i ∈ ((cfg0.win 6).blk t).view.set := by
  have hi0 : (i 0).val < 40000 := (i 0).isLt
  have hi1 : (i 1).val < 128 := (i 1).isLt
  have ht : (i 0).val / 4000 < cfg0.N := by rw [show cfg0.N = 10 from N_0]; omega
  obtain ⟨-, -, -, -, -, -, -, -, -, -, -, -, e0, e1⟩ := idx0 ⟨(i 0).val / 4000, ht⟩
  have e0' : win0_6.index ⟨(i 0).val / 4000, ht⟩ (0 : Fin 2) = (i 0).val / 4000 := e0
  refine ⟨⟨(i 0).val / 4000, ht⟩, flush0_6 _, ?_⟩
  rw [mem_blk0]
  intro a
  match a with
  | ⟨0, _⟩ =>
    show win0_6.index ⟨(i 0).val / 4000, ht⟩ (0 : Fin 2) * 4000 ≤ (i 0).val
      ∧ (i 0).val < win0_6.index ⟨(i 0).val / 4000, ht⟩ (0 : Fin 2) * 4000 + 4000
    rw [e0']; omega
  | ⟨1, _⟩ =>
    show win0_6.index ⟨(i 0).val / 4000, ht⟩ (1 : Fin 2) * 128 ≤ (i 1).val
      ∧ (i 1).val < win0_6.index ⟨(i 0).val / 4000, ht⟩ (1 : Fin 2) * 128 + 128
    rw [e1]; omega

/-- The first region's output array, from the arrays it found. -/
theorem region0_out (c : Dev nD) :
    (dat0 (F := Ideal) V c).arrAt 6 cfg0.N
      = layer true (V c main_v22) (V c main_v8) (V c main_arg0) (V c main_arg2) (V c main_v23) (V c main_arg4) :=
  (dat0 V c).arrAt_eq_of_cover 6 _ (fun t _ => flushed0 V c t) cover0
/-! ## Region 1 -/

/-- The block index maps, decided over the ten grid points: the row-blocked windows are at block `(t, 0)`, the whole
    arrays at block `(0, 0)`. -/
private theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of the neighbour-sum block at point `t` is row `4000 t + p` of the array. -/
private theorem blk1_0 (c : Dev nD) (t : Fin cfg1.N) (p : Fin 4000) (q : Fin 128) (h : 4000 * t.val + p.val < 40000) :
    (iblk1 V c 0 t : Vec Ideal S4000x128 .f32) (ix2 p q)
      = (V c main_v38 : S40000x128.Idx → Elt Ideal .f32) (ix2 ⟨4000 * t.val + p.val, h⟩ q) := by
  obtain ⟨e0, e1, -⟩ := idx1 t
  unfold iblk1
  rw [View.read_apply]
  show V c main_v38 (((cfg1.win 0).blk t).view.emb (ix2 p q)) = V c main_v38 _
  congr 1
  funext a
  apply Fin.ext
  match a with
  | ⟨0, _⟩ => show win1_0.index t (0 : Fin 2) * 4000 + 1 * p.val = 4000 * t.val + p.val; rw [e0]; omega
  | ⟨1, _⟩ => show win1_0.index t (1 : Fin 2) * 128 + 1 * q.val = q.val; rw [e1]; omega

/-- Row `p` of the degree block at point `t` is row `4000 t + p` of the degree column. -/
private theorem blk1_1 (c : Dev nD) (t : Fin cfg1.N) (p : Fin 4000) (q : Fin 1) (h : 4000 * t.val + p.val < 40000) :
    (iblk1 V c 1 t : Vec Ideal S4000x1 .f32) (ix2 p q)
      = (V c main_v8 : S40000x1.Idx → Elt Ideal .f32) (ix2 ⟨4000 * t.val + p.val, h⟩ q) := by
  obtain ⟨-, -, e0, e1, -⟩ := idx1 t
  unfold iblk1
  rw [View.read_apply]
  show V c main_v8 (((cfg1.win 1).blk t).view.emb (ix2 p q)) = V c main_v8 _
  congr 1
  funext a
  apply Fin.ext
  match a with
  | ⟨0, _⟩ => show win1_1.index t (0 : Fin 2) * 4000 + 1 * p.val = 4000 * t.val + p.val; rw [e0]; omega
  | ⟨1, _⟩ => show win1_1.index t (1 : Fin 2) * 1 + 1 * q.val = q.val; rw [e1]; omega

/-- Row `p` of the feature block at point `t` is row `4000 t + p` of the feature array. -/
private theorem blk1_2 (c : Dev nD) (t : Fin cfg1.N) (p : Fin 4000) (q : Fin 128) (h : 4000 * t.val + p.val < 40000) :
    (iblk1 V c 2 t : Vec Ideal S4000x128 .f32) (ix2 p q)
      = (V c main_v24 : S40000x128.Idx → Elt Ideal .f32) (ix2 ⟨4000 * t.val + p.val, h⟩ q) := by
  obtain ⟨-, -, -, -, e0, e1, -⟩ := idx1 t
  unfold iblk1
  rw [View.read_apply]
  show V c main_v24 (((cfg1.win 2).blk t).view.emb (ix2 p q)) = V c main_v24 _
  congr 1
  funext a
  apply Fin.ext
  match a with
  | ⟨0, _⟩ => show win1_2.index t (0 : Fin 2) * 4000 + 1 * p.val = 4000 * t.val + p.val; rw [e0]; omega
  | ⟨1, _⟩ => show win1_2.index t (1 : Fin 2) * 128 + 1 * q.val = q.val; rw [e1]; omega

/-- The first weight matrix's block is the matrix, at every point. -/
private theorem blk1_3 (c : Dev nD) (t : Fin cfg1.N) :
    (iblk1 V c 3 t : Vec Ideal S128x128 .f32) = (V c main_arg5 : S128x128.Idx → Elt Ideal .f32) := by
  obtain ⟨-, -, -, -, -, -, e0, e1, -⟩ := idx1 t
  funext y
  unfold iblk1
  rw [View.read_apply]
  show V c main_arg5 (((cfg1.win 3).blk t).view.emb y) = V c main_arg5 y
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The bias row's block is the bias row, at every point. -/
private theorem blk1_4 (c : Dev nD) (t : Fin cfg1.N) :
    (iblk1 V c 4 t : Vec Ideal S1x128 .f32) = (V c main_v39 : S1x128.Idx → Elt Ideal .f32) := by
  obtain ⟨-, -, -, -, -, -, -, -, e0, e1, -⟩ := idx1 t
  funext y
  unfold iblk1
  rw [View.read_apply]
  show V c main_v39 (((cfg1.win 4).blk t).view.emb y) = V c main_v39 y
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- The second weight matrix's block is the matrix, at every point. -/
private theorem blk1_5 (c : Dev nD) (t : Fin cfg1.N) :
    (iblk1 V c 5 t : Vec Ideal S128x128 .f32) = (V c main_arg7 : S128x128.Idx → Elt Ideal .f32) := by
  obtain ⟨-, -, -, -, -, -, -, -, -, -, e0, e1, -⟩ := idx1 t
  funext y
  unfold iblk1
  rw [View.read_apply]
  show V c main_arg7 (((cfg1.win 5).blk t).view.emb y) = V c main_arg7 y
  congr 1
  funext a
  apply Fin.ext
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

/-- WHAT POINT `t` WRITES BACK is block `t` of the second layer of the arrays the region found: entry `(p, j)` of the
    stored block is the layer's entry over the point's row blocks, whose row `p` is row `4000 t + p` of the arrays. -/
private theorem flushed1 (c : Dev nD) (t : Fin cfg1.N) :
    (dat1 V c).flushed 6 t = ((cfg1.win 6).blk t).view.read (Elt Ideal)
      (layer false (V c main_v38) (V c main_v8) (V c main_v24) (V c main_arg5) (V c main_v39) (V c main_arg7)) := by
  show (cfg1.win 6).cut (grid1.coords t) ((dat1 V c).after 6 t) = _
  rw [after1_6]
  unfold out1_6
  rw [View.canon_unit_zero hz]
  simp only [View.ld_unit_zero (S := S4000x1) hz, View.ld_unit_zero (S := S4000x128) hz,
    View.ld_unit_zero (S := S128x128) hz, View.ld_unit_zero (S := S1x128) hz]
  rw [pay1_eq, blk1_3, blk1_4, blk1_5]
  obtain ⟨-, -, -, -, -, -, -, -, -, -, -, -, e0, e1⟩ := idx1 t
  have hN : t.val < 10 := lt_of_lt_of_eq t.isLt N_1
  funext y
  obtain ⟨p, j, rfl⟩ : ∃ (p : Fin 4000) (j : Fin 128), y = ix2 p j := ⟨y 0, y 1, eq_ix2 y⟩
  rw [View.read_apply]
  have hr : 4000 * t.val + p.val < 40000 := by have := p.isLt; omega
  have hemb : ((cfg1.win 6).blk t).view.emb (ix2 p j) = (ix2 ⟨4000 * t.val + p.val, hr⟩ j : S40000x128.Idx) := by
    funext a
    apply Fin.ext
    match a with
    | ⟨0, _⟩ => show win1_6.index t (0 : Fin 2) * 4000 + 1 * p.val = 4000 * t.val + p.val; rw [e0]; omega
    | ⟨1, _⟩ => show win1_6.index t (1 : Fin 2) * 128 + 1 * j.val = j.val; rw [e1]; omega
  show layer false _ _ _ _ _ _ (ix2 p j)
    = layer false (V c main_v38) (V c main_v8) (V c main_v24) (V c main_arg5) (V c main_v39) (V c main_arg7)
        (((cfg1.win 6).blk t).view.emb (ix2 p j))
  rw [hemb]
  exact layer_row false _ _ _ _ _ _ _ _ _ p ⟨_, hr⟩ j (fun q => blk1_0 V c t p q hr) (blk1_1 V c t p 0 hr)
    (fun q => blk1_2 V c t p q hr)

/-- An index of the output array is in point `t`'s block iff each coordinate is in the block's range on its axis. -/
private theorem mem_blk1 (t : Fin cfg1.N) (i : S40000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v40).slice (win1_6.rect t)).set ↔ _
  rw [View.set_slice_whole, Rect.mem_set_unit]
  exact Iff.rfl

/-- The ten row blocks cover the output array: row `r` is in the block of point `⌊r / 4000⌋`, and every point writes
    its block back. -/
private theorem cover1 (i : S40000x128.Idx) :
    ∃ t : Fin cfg1.N, (cfg1.win 6).flush t = true ∧ i ∈ ((cfg1.win 6).blk t).view.set := by
  have hi0 : (i 0).val < 40000 := (i 0).isLt
  have hi1 : (i 1).val < 128 := (i 1).isLt
  have ht : (i 0).val / 4000 < cfg1.N := by rw [show cfg1.N = 10 from N_1]; omega
  obtain ⟨-, -, -, -, -, -, -, -, -, -, -, -, e0, e1⟩ := idx1 ⟨(i 0).val / 4000, ht⟩
  have e0' : win1_6.index ⟨(i 0).val / 4000, ht⟩ (0 : Fin 2) = (i 0).val / 4000 := e0
  refine ⟨⟨(i 0).val / 4000, ht⟩, flush1_6 _, ?_⟩
  rw [mem_blk1]
  intro a
  match a with
  | ⟨0, _⟩ =>
    show win1_6.index ⟨(i 0).val / 4000, ht⟩ (0 : Fin 2) * 4000 ≤ (i 0).val
      ∧ (i 0).val < win1_6.index ⟨(i 0).val / 4000, ht⟩ (0 : Fin 2) * 4000 + 4000
    rw [e0']; omega
  | ⟨1, _⟩ =>
    show win1_6.index ⟨(i 0).val / 4000, ht⟩ (1 : Fin 2) * 128 ≤ (i 1).val
      ∧ (i 1).val < win1_6.index ⟨(i 0).val / 4000, ht⟩ (1 : Fin 2) * 128 + 128
    rw [e1]; omega

/-- The second region's output array, from the arrays it found. -/
theorem region1_out (c : Dev nD) :
    (dat1 (F := Ideal) V c).arrAt 6 cfg1.N
      = layer false (V c main_v38) (V c main_v8) (V c main_v24) (V c main_arg5) (V c main_v39) (V c main_arg7) :=
  (dat1 V c).arrAt_eq_of_cover 6 _ (fun t _ => flushed1 V c t) cover1

end Cert.Sage

end
-- ==== Proof.KRun.lean ====
/-
  The kernel program's run, read at every buffer.

  The program is a stretch of host operations, a kernel region, a second stretch of host operations and a second
  kernel region.  Every weakly fair execution terminates, and the final memory holds, at every buffer that outlives
  the regions, the contents obtained by folding the four segments over the launch memory: a host stretch applies its
  operations, a region leaves its input arrays as they were and its output array at what its write-backs left.  In
  particular the result buffer holds what the second region's write-backs left, and the arguments are unchanged.
-/
import proofs.«108806_j25323127177280_1_alg».proof.Proof.Gen.KernelIdeal.Frame

set_option maxRecDepth 16384

noncomputable section

namespace Cert.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates with every buffer that outlives the regions at the
    fold of the four segments over the launch memory. -/
theorem kernel_run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run, read at the result and at the arguments: the result buffer holds what the second region's
    write-backs left in its output array, the arguments hold what they held at launch. -/
theorem kernel_run : θ_run defs (onTc (τ := τ) (main (F := F))) ⟨m, fun _ => 0, ρ⟩ (fun r => ∀ c : Dev nD,
      r.2.mem ((c.tc : Thread nD τ).loc main_v40) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h c _ (mem_uc main_v40 (by decide))).trans (W4_arr m ρ c 6),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)
    (kernel_run_all m ρ)

end Cert.Sage

end
-- ==== Proof.KValue.lean ====
/-
  The kernel program's result is the network of `Net.lean` applied to the argument arrays.

  The first region leaves the rectified first layer of the features, their neighbour sum and the degree; the host
  stretch between the regions takes the neighbour sum of that array; the second region leaves the second layer of it.
  Each region computes its layer in ten row blocks, which is the layer of the whole arrays (`Region.lean`), and the
  layer with the degree as a column and the bias as a row is the host's layer (`RefLayer.lean`).
-/
import proofs.«108806_j25323127177280_1_alg».proof.Proof.Glue
import proofs.«108806_j25323127177280_1_alg».proof.Proof.Region
import proofs.«108806_j25323127177280_1_alg».proof.Proof.KRun

set_option maxRecDepth 16384

noncomputable section

namespace Cert.Sage

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The first region's output array is the first layer's output. -/
theorem first_region (c : Dev nD) :
    ((dat0 (F := Ideal) (V1 m ρ) c).arrAt 6 cfg0.N : FVec Ideal S40000x128 .f32) = hidden (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [region0_out (V1 m ρ) c, V1_v22, V1_v8, V1_arg0, V1_arg2, V1_v23, V1_arg4]
  exact (refRelu_refLayer_eq _ _ _ _ _ _ _ _).symm

/-- The second region's output array is the network's output. -/
theorem second_region (c : Dev nD) :
    ((dat1 (F := Ideal) (V3 m ρ) c).arrAt 6 cfg1.N : FVec Ideal S40000x128 .f32) = net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [region1_out (V3 m ρ) c, V3_v38, V3_v8, V3_v24, V3_arg5, V3_v39, V3_arg7, first_region]
  exact (refLayer_eq _ _ _ _ _ _ _ _).symm

/-- Every weakly fair execution of the kernel program terminates with the result buffer at the network of the
    arguments and the arguments unchanged. -/
theorem kernel_value_run : θ_run defs (onTc (τ := τ) (main (F := Ideal))) ⟨m, fun _ => 0, ρ⟩ (fun r => ∀ c : Dev nD,
      (r.2.mem ((c.tc : Thread nD τ).loc main_v40) : FVec Ideal S40000x128 .f32) = net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (second_region m ρ c), (h c).2⟩) (kernel_run m ρ)

end Cert.Sage

end
-- ==== Proof.RefSide.lean ====
/-
  The reference program's result is the network of `Net.lean` applied to the argument arrays: its operations, composed,
  are that function's, spelt out.
-/
import proofs.«108806_j25323127177280_1_alg».proof.Proof.Net
import proofs.«108806_j25323127177280_1_alg».proof.Proof.Gen.ReferenceIdeal.Run

set_option maxRecDepth 16384

noncomputable section

namespace Cert.Sage

open Idealize.ShloMosaic Idealize.ShloMosaic.TcCoe Idealize.SL.Sem Cert.ReferenceIdeal

variable {F : FTy → Type} [FloatOps F]

/-- The composed term of the reference's operations is the network of the arguments. -/
theorem ref_result (m : (ℓ : Loc nD τ sig) → Buf (Elt F) ℓ) (c : Dev nD) :
    Cert.ReferenceIdeal.Value.res_main_v58 m c
      = net (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  unfold Cert.ReferenceIdeal.Value.res_main_v58 net hidden refRelu refLayer msgOf degOf srcIdx dstIdx
  rfl

end Cert.Sage

end
-- ==== Proof.lean ====
/-
  A two-layer graph network with mean aggregation: a Pallas kernel program against its jnp reference, equal as
  extended reals.

  Both programs compute, for 40000 nodes with 128 features and 640000 edges,
      h   = relu (layer (x, msg x))          out = layer (h, msg h),
      layer (z, s) (r, j) = ∑ q, (s r q / max (deg r) 1) · Wl q j  +  b j  +  ∑ q, z r q · Wr q j,
  where `msg z` adds the source rows of `z` into their destination rows and `deg` counts the edges into a node.
  The kernel program computes `msg` and `deg` on the host with the reference's own operations and each layer in a
  kernel region, ten row blocks of 4000 nodes, the degree handed over as a column and the bias as a row; the reference
  computes the layer on whole arrays.  No law of arithmetic is needed beyond reading both spellings entry by entry:
  a product into a zero accumulator and the host's product are the same sum, a change of float format is the identity,
  and an entry of a layer depends only on its own row.  So the precondition (finite inputs) is never opened.

  `Spec.lean`: the layer as a function.  `Payload.lean`: a grid point's stored block is the layer of its blocks.
  `Region.lean`: a region's output array is the layer of the arrays it found.  `RefLayer.lean`: the host's layer is the
  same function.  `Net.lean`: the network in host operations.  `RefSide.lean`: the reference's result is the network.
  `KRun.lean`, `Glue.lean`, `KValue.lean`: the kernel program's run, what its host stretches hand to the regions, and
  its result, the network.
-/
import proofs.«108806_j25323127177280_1_alg».proof.Defs
import proofs.«108806_j25323127177280_1_alg».proof.Proof.Gen.Kernel
import proofs.«108806_j25323127177280_1_alg».proof.Proof.Gen.Kernel.Skeleton
import proofs.«108806_j25323127177280_1_alg».proof.Proof.Gen.Kernel.Launch
import proofs.«108806_j25323127177280_1_alg».proof.Proof.Gen.Kernel.Points
import proofs.«108806_j25323127177280_1_alg».proof.Proof.Gen.Kernel.Frame
import proofs.«108806_j25323127177280_1_alg».proof.Proof.Gen.KernelIdeal
import proofs.«108806_j25323127177280_1_alg».proof.Proof.Gen.KernelIdeal.Skeleton
import proofs.«108806_j25323127177280_1_alg».proof.Proof.Gen.KernelIdeal.Launch
import proofs.«108806_j25323127177280_1_alg».proof.Proof.Gen.KernelIdeal.Points
import proofs.«108806_j25323127177280_1_alg».proof.Proof.Gen.KernelIdeal.Frame
import proofs.«108806_j25323127177280_1_alg».proof.Proof.Gen.ReferenceIdeal
import proofs.«108806_j25323127177280_1_alg».proof.Proof.Gen.Pre_finite_inputs
import proofs.«108806_j25323127177280_1_alg».proof.Proof.Gen.ReferenceIdeal.Run
import proofs.«108806_j25323127177280_1_alg».proof.Proof.KValue
import proofs.«108806_j25323127177280_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the network of the arguments in their result buffer, and the arguments agree. -/
theorem algebraic : Cert.algebraic_KernelIdeal_ReferenceIdeal := by
  intro m ρ m' ρ' _ hagree
  refine ⟨fun c => Cert.Sage.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.Sage.kernel_value_run m ρ, ?_⟩
  refine (θ_run Cert.ReferenceIdeal.defs _ _).mono (fun _ h c => ⟨(h c).1.trans ?_, (h c).2⟩)
    (Cert.ReferenceIdeal.Value.run (F := Ideal) m' ρ')
  rw [Cert.Sage.ref_result]
  obtain ⟨e0, e1, e2, e3, e4, e5, e6, e7⟩ := hagree c
  rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
